-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S16x512x512 : Shape := ⟨3, ![16, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) (main_arg1 : IVec S16x512x512 32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S16x512x512 : Shape := ⟨3, ![16, 512, 512]⟩
abbrev S16x2x1x24 : Shape := ⟨4, ![16, 2, 1, 24]⟩
abbrev S16x2x24 : Shape := ⟨3, ![16, 2, 24]⟩
abbrev S_ : Shape := ⟨0, ![]⟩
abbrev S16x24 : Shape := ⟨2, ![16, 24]⟩
abbrev S16x8 : Shape := ⟨2, ![16, 8]⟩
abbrev S16 : Shape := ⟨1, ![16]⟩
abbrev S1x8x256x512 : Shape := ⟨4, ![1, 8, 256, 512]⟩
abbrev S1x256x512 : Shape := ⟨3, ![1, 256, 512]⟩
abbrev S1x1x1x24 : Shape := ⟨4, ![1, 1, 1, 24]⟩
abbrev S8x256x512 : Shape := ⟨3, ![8, 256, 512]⟩
abbrev S256x512 : Shape := ⟨2, ![256, 512]⟩
abbrev S8 : Shape := ⟨1, ![8]⟩
abbrev S24 : Shape := ⟨1, ![24]⟩

abbrev nBuf : Space → Nat
  | .hbm => 41
  | .vmem => 6
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S16x512x512, .f32⟩
  | .hbm, ⟨3, _⟩ => ⟨S16x2x1x24, .f32⟩
  | .hbm, ⟨4, _⟩ => ⟨S16x2x24, .f32⟩
  | .hbm, ⟨5, _⟩ => ⟨S_, .f32⟩
  | .hbm, ⟨6, _⟩ => ⟨S16x24, .f32⟩
  | .hbm, ⟨7, _⟩ => ⟨S16x8, .f32⟩
  | .hbm, ⟨8, _⟩ => ⟨S16x8, .f32⟩
  | .hbm, ⟨9, _⟩ => ⟨S16x8, .f32⟩
  | .hbm, ⟨10, _⟩ => ⟨S_, .f32⟩
  | .hbm, ⟨11, _⟩ => ⟨S16x8, .f32⟩
  | .hbm, ⟨12, _⟩ => ⟨S16x8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x8, .f32⟩
  | .hbm, ⟨17, _⟩ => ⟨S16x8, .f32⟩
  | .hbm, ⟨18, _⟩ => ⟨S_, .f32⟩
  | .hbm, ⟨19, _⟩ => ⟨S16x8, .f32⟩
  | .hbm, ⟨20, _⟩ => ⟨S16x8, .f32⟩
  | .hbm, ⟨21, _⟩ => ⟨S_, .f32⟩
  | .hbm, ⟨22, _⟩ => ⟨S16x8, .f32⟩
  | .hbm, ⟨23, _⟩ => ⟨S16x8, .f32⟩
  | .hbm, ⟨24, _⟩ => ⟨S16x8, .f32⟩
  | .hbm, ⟨25, _⟩ => ⟨S_, .f32⟩
  | .hbm, ⟨26, _⟩ => ⟨S16x8, .f32⟩
  | .hbm, ⟨27, _⟩ => ⟨S16x8, .f32⟩
  | .hbm, ⟨28, _⟩ => ⟨S16x8, .f32⟩
  | .hbm, ⟨29, _⟩ => ⟨S_, .f32⟩
  | .hbm, ⟨30, _⟩ => ⟨S16x8, .f32⟩
  | .hbm, ⟨31, _⟩ => ⟨S16x8, .f32⟩
  | .hbm, ⟨32, _⟩ => ⟨S16x8, .f32⟩
  | .hbm, ⟨33, _⟩ => ⟨S_, .f32⟩
  | .hbm, ⟨34, _⟩ => ⟨S16x8, .f32⟩
  | .hbm, ⟨35, _⟩ => ⟨S16x8, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .local _ .vmem, ⟨0, _⟩ => ⟨S1x8x256x512, .f32⟩
  | .local _ .vmem, ⟨1, _⟩ => ⟨S1x8x256x512, .f32⟩
  | .local _ .vmem, ⟨2, _⟩ => ⟨S1x256x512, .f32⟩
  | .local _ .vmem, ⟨3, _⟩ => ⟨S1x256x512, .f32⟩
  | .local _ .vmem, ⟨4, _⟩ => ⟨S1x1x1x24, .f32⟩
  | .local _ .vmem, ⟨5, _⟩ => ⟨S1x1x1x24, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_v7 : Ref sig .tc := ⟨.hbm, 11, rfl⟩
abbrev main_call0_v8 : Ref sig .tc := ⟨.hbm, 12, rfl⟩
abbrev main_call0_cst_1 : Ref sig .tc := ⟨.hbm, 13, rfl⟩
abbrev main_call0_cst_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst_4 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_cst_5 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_cst_6 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_cst_7 : Ref sig .tc := ⟨.hbm, 33, rfl⟩
abbrev main_call0_v23 : Ref sig .tc := ⟨.hbm, 34, rfl⟩
abbrev main_call0_v24 : Ref sig .tc := ⟨.hbm, 35, rfl⟩
abbrev main_call0_cst_8 : Ref sig .tc := ⟨.hbm, 36, rfl⟩
abbrev main_call0_v25 : Ref sig .tc := ⟨.hbm, 37, rfl⟩
abbrev main_call0_cst_9 : Ref sig .tc := ⟨.hbm, 38, rfl⟩
abbrev main_call0_v26 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x2x1x24_S16x2x24 : S16x2x1x24.ShapeCasts S16x2x24
  reducesTo_S16x2x24_S16x24_d1 : S16x2x24.ReducesTo [1] S16x24
  h_S_ : 0 < S_.numel
  slices_S16x24_S16x8_0_0 : S16x24.Slices ![0, 0] S16x8
  slices_S16x24_S16x8_0_8 : S16x24.Slices ![0, 8] S16x8
  slices_S16x24_S16x8_0_16 : S16x24.Slices ![0, 16] S16x8
  bcast_S_S16x8 : S_.BroadcastsInDim S16x8 (![] : Fin 0 → Fin S16x8.rank)
  reducesTo_S16x8_S16_d1 : S16x8.ReducesTo [1] S16
  bcast_S_S16 : S_.BroadcastsInDim S16 (![] : Fin 0 → Fin S16.rank)
  inb_S1x8x256x512_S1x8x256x512_0_0_0_0 : ∀ a, (![0, 0, 0, 0] : Fin 4 → Nat) a + S1x8x256x512.size a ≤ S1x8x256x512.size a
  h_S1x8x256x512 : 0 < S1x8x256x512.numel
  shapeCasts_S1x8x256x512_S8x256x512 : S1x8x256x512.ShapeCasts S8x256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  iota_S8x256x512_d0_w32 : S8x256x512.Iotas .tc 32 [0]
  shapeCasts_S256x512_S1x256x512 : S256x512.ShapeCasts S1x256x512
  broadcasts_S1x256x512_S8x256x512 : S1x256x512.Broadcasts S8x256x512
  reduces_S8x256x512_S8 : S8x256x512.Reduces [1, 2] S8
  concatenates_S8_S8_S8_S24_d0 : Shape.Concatenates [S8, S8, S8] S24 0
  inb_S1x1x1x24_S1x1x1x24_0_0_0_0 : ∀ a, (![0, 0, 0, 0] : Fin 4 → Nat) a + S1x1x1x24.size a ≤ S1x1x1x24.size a
  h_S1x1x1x24 : 0 < S1x1x1x24.numel
  shapeCasts_S1x1x1x24_S24 : S1x1x1x24.ShapeCasts S24
  shapeCasts_S24_S1x1x1x24 : S24.ShapeCasts S1x1x1x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S16x8x512x512.size a
  hwx0_0 : ∀ i : grid0.Coords, EltTy.bits .f32 = 32 ∨ (Rect.block (s := S16x8x512x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S16x512x512.size a
  hwx0_1 : ∀ i : grid0.Coords, EltTy.bits .f32 = 32 ∨ (Rect.block (s := S16x512x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x24.size a ≤ S16x2x1x24.size a
  hwx0_2 : ∀ i : grid0.Coords, EltTy.bits .f32 = 32 ∨ (Rect.block (s := S16x2x1x24) S1x1x1x24.size (cc0_transform_2 i) (hinb0_2 i)).WholeWords (EltTy.packing .f32)

variable [Facts₀]

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1x1x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S16x512x512 : Shape := ⟨3, ![16, 512, 512]⟩
abbrev S_ : Shape := ⟨0, ![]⟩
abbrev S16x1x512x512 : Shape := ⟨4, ![16, 1, 512, 512]⟩
abbrev S1x8x1x1 : Shape := ⟨4, ![1, 8, 1, 1]⟩
abbrev S16x8 : Shape := ⟨2, ![16, 8]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S16x512x512, .i32⟩
  | .hbm, ⟨2, _⟩ => ⟨S16x8x512x512, .f32⟩
  | .hbm, ⟨3, _⟩ => ⟨S16x8x512x512, .f32⟩
  | .hbm, ⟨4, _⟩ => ⟨S_, .f32⟩
  | .hbm, ⟨5, _⟩ => ⟨S16x8x512x512, .f32⟩
  | .hbm, ⟨6, _⟩ => ⟨S16x8x512x512, .f32⟩
  | .hbm, ⟨7, _⟩ => ⟨S_, .f32⟩
  | .hbm, ⟨8, _⟩ => ⟨S16x8x512x512, .f32⟩
  | .hbm, ⟨9, _⟩ => ⟨S16x8x512x512, .f32⟩
  | .hbm, ⟨10, _⟩ => ⟨S16x1x512x512, .i32⟩
  | .hbm, ⟨11, _⟩ => ⟨S1x8x1x1, .i32⟩
  | .hbm, ⟨12, _⟩ => ⟨S16x8x512x512, .i32⟩
  | .hbm, ⟨13, _⟩ => ⟨S16x8x512x512, .i32⟩
  | .hbm, ⟨14, _⟩ => ⟨S16x8x512x512, .i1⟩
  | .hbm, ⟨15, _⟩ => ⟨S16x8x512x512, .f32⟩
  | .hbm, ⟨16, _⟩ => ⟨S16x8x512x512, .f32⟩
  | .hbm, ⟨17, _⟩ => ⟨S_, .f32⟩
  | .hbm, ⟨18, _⟩ => ⟨S16x8, .f32⟩
  | .hbm, ⟨19, _⟩ => ⟨S_, .f32⟩
  | .hbm, ⟨20, _⟩ => ⟨S16x8, .f32⟩
  | .hbm, ⟨21, _⟩ => ⟨S16x8, .f32⟩
  | .hbm, ⟨22, _⟩ => ⟨S16x8x512x512, .f32⟩
  | .hbm, ⟨23, _⟩ => ⟨S_, .f32⟩
  | .hbm, ⟨24, _⟩ => ⟨S16x8, .f32⟩
  | .hbm, ⟨25, _⟩ => ⟨S_, .f32⟩
  | .hbm, ⟨26, _⟩ => ⟨S16x8, .f32⟩
  | .hbm, ⟨27, _⟩ => ⟨S16x8, .f32⟩
  | .hbm, ⟨28, _⟩ => ⟨S16x8, .f32⟩
  | .hbm, ⟨29, _⟩ => ⟨S_, .f32⟩
  | .hbm, ⟨30, _⟩ => ⟨S16x8, .f32⟩
  | .hbm, ⟨31, _⟩ => ⟨S16x8, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S_S16x8x512x512 : S_.BroadcastsInDim S16x8x512x512 (![] : Fin 0 → Fin S16x8x512x512.rank)
  bcast_S16x512x512_S16x1x512x512_0_2_3 : S16x512x512.BroadcastsInDim S16x1x512x512 (![0, 2, 3] : Fin 3 → Fin S16x1x512x512.rank)
  bcast_S16x1x512x512_S16x8x512x512_0_1_2_3 : S16x1x512x512.BroadcastsInDim S16x8x512x512 (![0, 1, 2, 3] : Fin 4 → Fin S16x8x512x512.rank)
  bcast_S1x8x1x1_S16x8x512x512_0_1_2_3 : S1x8x1x1.BroadcastsInDim S16x8x512x512 (![0, 1, 2, 3] : Fin 4 → Fin S16x8x512x512.rank)
  reducesTo_S16x8x512x512_S16x8_d2_3 : S16x8x512x512.ReducesTo [2, 3] S16x8
  h_S_ : 0 < S_.numel
  bcast_S_S16x8 : S_.BroadcastsInDim S16x8 (![] : Fin 0 → Fin S16x8.rank)
  reducesTo_S16x8_S16_d1 : S16x8.ReducesTo [1] S16
  bcast_S_S16 : S_.BroadcastsInDim S16 (![] : Fin 0 → Fin S16.rank)

variable [Facts₀]

class Facts : Prop extends Facts₀ where

variable [Facts]
-- ==== Proof.DiceSums.lean ====
/-
  Finite sums over the index sets of literal shapes, in any commutative monoid.

  * a real finite sum coerced to the extended reals is the sum of the coerced terms;
  * a sum over a rank-3 (rank-4) index set is the triple (quadruple) sum over its coordinates;
  * the fibre of a reduction that keeps the leading axis (the two leading axes) is the double sum over the
    two trailing coordinates;
  * 512 rows are two half-images of 256 rows each: row `j * 256 + h` for `j < 2`, `h < 256`.
-/
import Idealize.ShloMosaic.PureOps.Ideal
import Idealize.ShloMosaic.Lib.ValueIdx

noncomputable section

namespace Cert.Dice

open Idealize.ShloMosaic Idealize.ShloMosaic.ValueIdx

/-- The coercion ℝ → EReal commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The fibre over `c` of a map that keeps the leading coordinate of a rank-3 index: the sum over it is the double
    sum over the two trailing coordinates. -/
theorem sum_fiber3 {M : Type*} [AddCommMonoid M] {A B C : Nat}
    (drop : (⟨3, ![A, B, C]⟩ : Shape).Idx → (⟨1, ![A]⟩ : Shape).Idx) (hdrop : ∀ y, (drop y 0).val = (y 0).val)
    (f : (⟨3, ![A, B, C]⟩ : Shape).Idx → M) (c : Fin A) [DecidablePred fun y => drop y = ix1 c] :
    ∑ y ∈ Finset.univ.filter (fun y => drop y = ix1 c), f y = ∑ b : Fin B, ∑ w : Fin C, f (ix3 c b w) := by
  have hiff : ∀ y, drop y = ix1 c ↔ y 0 = c := fun y =>
    ⟨fun e => Fin.ext ((hdrop y).symm.trans (congrArg (fun z => (z 0).val) e)), fun e => by
      funext d; match d with | ⟨0, _⟩ => exact Fin.ext ((hdrop y).trans (congrArg Fin.val e))⟩
  rw [Finset.sum_filter, sum_idx3, Finset.sum_eq_single c]
  · exact Finset.sum_congr rfl fun b _ => Finset.sum_congr rfl fun w _ => if_pos ((hiff _).mpr rfl)
  · intro a _ hne
    exact Finset.sum_eq_zero fun b _ => Finset.sum_eq_zero fun w _ => if_neg fun e => hne ((hiff _).mp e)
  · intro h; exact absurd (Finset.mem_univ _) h

/-- The fibre over `(b, c)` of a map that keeps the two leading coordinates of a rank-4 index: the sum over it is the
    double sum over the two trailing coordinates. -/
theorem sum_fiber4 {M : Type*} [AddCommMonoid M] {A B C D : Nat}
    (drop : (⟨4, ![A, B, C, D]⟩ : Shape).Idx → (⟨2, ![A, B]⟩ : Shape).Idx)
    (hdrop0 : ∀ y, (drop y 0).val = (y 0).val) (hdrop1 : ∀ y, (drop y 1).val = (y 1).val)
    (f : (⟨4, ![A, B, C, D]⟩ : Shape).Idx → M) (b : Fin A) (c : Fin B) [DecidablePred fun y => drop y = ix2 b c] :
    ∑ y ∈ Finset.univ.filter (fun y => drop y = ix2 b c), f y = ∑ h : Fin C, ∑ w : Fin D, f (ix4 b c h w) := by
  have hiff : ∀ y, drop y = ix2 b c ↔ (y 0 = b ∧ y 1 = c) := fun y =>
    ⟨fun e => ⟨Fin.ext ((hdrop0 y).symm.trans (congrArg (fun z => (z 0).val) e)),
        Fin.ext ((hdrop1 y).symm.trans (congrArg (fun z => (z 1).val) e))⟩, fun e => by
      funext d
      match d with
      | ⟨0, _⟩ => exact Fin.ext ((hdrop0 y).trans (congrArg Fin.val e.1))
      | ⟨1, _⟩ => exact Fin.ext ((hdrop1 y).trans (congrArg Fin.val e.2))⟩
  rw [Finset.sum_filter, sum_idx4, Finset.sum_eq_single b]
  · rw [Finset.sum_eq_single c]
    · exact Finset.sum_congr rfl fun h _ => Finset.sum_congr rfl fun w _ => if_pos ((hiff _).mpr ⟨rfl, rfl⟩)
    · intro a' _ hne
      exact Finset.sum_eq_zero fun h _ => Finset.sum_eq_zero fun w _ => if_neg fun e => hne ((hiff _).mp e).2
    · intro h; exact absurd (Finset.mem_univ _) h
  · intro a _ hne
    exact Finset.sum_eq_zero fun a' _ => Finset.sum_eq_zero fun h _ => Finset.sum_eq_zero fun w _ =>
      if_neg fun e => hne ((hiff _).mp e).1
  · intro h; exact absurd (Finset.mem_univ _) h

/-- Row `h` of half `j` of 512 rows cut in two. -/
def row (j : Fin 2) (h : Fin 256) : Fin 512 := ⟨j.val * 256 + h.val, by omega⟩

@[simp] theorem row_val (j : Fin 2) (h : Fin 256) : (row j h).val = j.val * 256 + h.val := rfl

/-- A sum over 512 rows is the sum over the two halves of the sums over their 256 rows. -/
theorem sum_rows {M : Type*} [AddCommMonoid M] (g : Fin 512 → M) :
    ∑ H : Fin 512, g H = ∑ j : Fin 2, ∑ h : Fin 256, g (row j h) := by
  rw [Fin.sum_univ_two]
  refine (Fin.sum_univ_add (a := 256) (b := 256) (f := (g : Fin (256 + 256) → M))).trans ?_
  exact congrArg₂ (· + ·) (Finset.sum_congr rfl fun h _ => congrArg g (Fin.ext (by simp [row])))
    (Finset.sum_congr rfl fun h _ => congrArg g (Fin.ext (by simp [row]; omega)))

end Cert.Dice

end
-- ==== Proof.DicePayload.lean ====
/-
  The kernel body's value. A block of activations `x0` (8 classes x 256 rows x 512 columns) and a block of targets
  converted to float `x1` (256 x 512) give a vector of 24 lanes: lane `k < 8` the sum over the block of tanh (x0/2)
  at class `k`; lane `8 + k` that sum restricted to the positions whose target equals `k`; lane `16 + k` the number
  of those positions.
-/
import proofs.«120999_g17532056502367_cont_7to1_1352_15_alg».proof.Proof.Gen.KernelIdeal.Skeleton
import Idealize.ShloMosaic.Lib.Pipeline.Value
import Idealize.ShloMosaic.Lib.ValueIdx
import Idealize.ShloMosaic.PureOps.Ideal.Laws
import proofs.«120999_g17532056502367_cont_7to1_1352_15_alg».proof.Proof.DiceSums

noncomputable section

namespace Cert.KernelIdeal.Dice

open Idealize.ShloMosaic Idealize.ShloMosaic.ValueIdx Cert.KernelIdeal Cert.KernelIdeal.Gen Cert.Dice

/-- tanh of half the activations, the block's leading unit axis dropped. -/
def thV (x0 : Vec Ideal S1x8x256x512 .f32) : FVec Ideal S8x256x512 .f32 :=
  tanh (mulf (shapeCast S8x256x512 x0 shapeCasts_S1x8x256x512_S8x256x512) (broadcast S8x256x512 (Scalar.ofBits .f32 0x3F000000#32)))

/-- The class mask: the targets, repeated over the classes, equal to the class number. -/
def maskV (x1 : Vec Ideal S1x256x512 .f32) : IVec S8x256x512 1 :=
  cmpf .oeq
    (broadcastTo S8x256x512 (shapeCast S1x256x512 (shapeCast S256x512 x1 shapeCasts_S1x256x512_S256x512) shapeCasts_S256x512_S1x256x512)
      broadcasts_S1x256x512_S8x256x512)
    (sitofp (F := Ideal) .f32 (iota .tc S8x256x512 32 [0] iota_S8x256x512_d0_w32))

def totV (x0 : Vec Ideal S1x8x256x512 .f32) : FVec Ideal S8 .f32 :=
  multiReduction .add [1, 2] S8 (thV x0) 0x00000000#32 reduces_S8x256x512_S8 (.inl rfl) rfl

def intV (x0 : Vec Ideal S1x8x256x512 .f32) (x1 : Vec Ideal S1x256x512 .f32) : FVec Ideal S8 .f32 :=
  multiReduction .add [1, 2] S8 (select (maskV x1) (thV x0) (broadcast S8x256x512 (Scalar.ofBits (F := Ideal) .f32 0x00000000#32)))
    0x00000000#32 reduces_S8x256x512_S8 (.inl rfl) rfl

def cntV (x1 : Vec Ideal S1x256x512 .f32) : FVec Ideal S8 .f32 :=
  multiReduction .add [1, 2] S8
    (select (maskV x1) (broadcast S8x256x512 (Scalar.ofBits (F := Ideal) .f32 0x3F800000#32))
      (broadcast S8x256x512 (Scalar.ofBits (F := Ideal) .f32 0x00000000#32)))
    0x00000000#32 reduces_S8x256x512_S8 (.inl rfl) rfl

/-- The payload is the three lane vectors laid end to end, with three unit axes in front. -/
theorem pay_eq (x0 : Vec Ideal S1x8x256x512 .f32) (x1 : Vec Ideal S1x256x512 .f32) :
    k0_pay1 (F := Ideal) x0 x1
      = shapeCast S1x1x1x24 (concatenate S24 0 [⟨S8, totV x0⟩, ⟨S8, intV x0 x1⟩, ⟨S8, cntV x1⟩] concatenates_S8_S8_S8_S24_d0)
          shapeCasts_S24_S1x1x1x24 := rfl

theorem thV_apply (x0 : Vec Ideal S1x8x256x512 .f32) (k : Fin 8) (h : Fin 256) (w : Fin 512) :
    thV x0 (ix3 k h w) = Ideal.tanh (x0 (ix4 (0 : Fin 1) k h w) * Ideal.ofBits .f32 0x3F000000#32) := by
  unfold thV
  show Ideal.tanh (shapeCast S8x256x512 x0 shapeCasts_S1x8x256x512_S8x256x512 (ix3 k h w) * Ideal.ofBits .f32 0x3F000000#32) = _
  rw [shapeCast_dropUnit_apply]
  refine congrArg (fun z => Ideal.tanh (x0 z * Ideal.ofBits .f32 0x3F000000#32)) (funext fun a => ?_)
  match a with
  | ⟨0, _⟩ => rfl
  | ⟨1, _⟩ => rfl
  | ⟨2, _⟩ => rfl
  | ⟨3, _⟩ => rfl

theorem maskV_apply (x1 : Vec Ideal S1x256x512 .f32) (k : Fin 8) (h : Fin 256) (w : Fin 512) :
    maskV x1 (ix3 k h w)
      = Ideal.cmp .oeq (x1 (ix3 (0 : Fin 1) h w)) (((BitVec.ofNat 32 k.val).toInt : ℝ) : EReal) := by
  unfold maskV
  rw [shapeCast_shapeCast]
  show Ideal.cmp .oeq (broadcastTo S8x256x512 x1 broadcasts_S1x256x512_S8x256x512 (ix3 k h w))
    (((iota .tc S8x256x512 32 [0] iota_S8x256x512_d0_w32 (ix3 k h w)).toInt : ℝ) : EReal) = _
  rw [iota_single_apply, broadcastTo_apply x1 _ (ix3 k h w) (ix3 (0 : Fin 1) h w) (fun a => by
    match a with
    | ⟨0, _⟩ => rfl
    | ⟨1, _⟩ => rfl
    | ⟨2, _⟩ => rfl)]

theorem totV_apply (x0 : Vec Ideal S1x8x256x512 .f32) (k : Fin 8) :
    totV x0 (ix1 k) = ∑ h : Fin 256, ∑ w : Fin 512, Ideal.tanh (x0 (ix4 (0 : Fin 1) k h w) * Ideal.ofBits .f32 0x3F000000#32) := by
  unfold totV
  refine Eq.trans (@sum_fiber3 EReal _ 8 256 512 reduces_S8x256x512_S8.drop (fun y => rfl) (thV x0) k _) ?_
  exact Finset.sum_congr rfl fun h _ => Finset.sum_congr rfl fun w _ => thV_apply x0 k h w

theorem intV_apply (x0 : Vec Ideal S1x8x256x512 .f32) (x1 : Vec Ideal S1x256x512 .f32) (k : Fin 8) :
    intV x0 x1 (ix1 k) = ∑ h : Fin 256, ∑ w : Fin 512,
      Scalar.select (Ideal.cmp .oeq (x1 (ix3 (0 : Fin 1) h w)) (((BitVec.ofNat 32 k.val).toInt : ℝ) : EReal))
        (Ideal.tanh (x0 (ix4 (0 : Fin 1) k h w) * Ideal.ofBits .f32 0x3F000000#32)) (Ideal.ofBits .f32 0x00000000#32) := by
  unfold intV
  refine Eq.trans (@sum_fiber3 EReal _ 8 256 512 reduces_S8x256x512_S8.drop (fun y => rfl) _ k _) ?_
  refine Finset.sum_congr rfl fun h _ => Finset.sum_congr rfl fun w _ => ?_
  show Scalar.select (maskV x1 (ix3 k h w)) (thV x0 (ix3 k h w)) (Ideal.ofBits .f32 0x00000000#32) = _
  rw [maskV_apply, thV_apply]

theorem cntV_apply (x1 : Vec Ideal S1x256x512 .f32) (k : Fin 8) :
    cntV x1 (ix1 k) = ∑ h : Fin 256, ∑ w : Fin 512,
      Scalar.select (Ideal.cmp .oeq (x1 (ix3 (0 : Fin 1) h w)) (((BitVec.ofNat 32 k.val).toInt : ℝ) : EReal))
        (Ideal.ofBits .f32 0x3F800000#32) (Ideal.ofBits .f32 0x00000000#32) := by
  unfold cntV
  refine Eq.trans (@sum_fiber3 EReal _ 8 256 512 reduces_S8x256x512_S8.drop (fun y => rfl) _ k _) ?_
  refine Finset.sum_congr rfl fun h _ => Finset.sum_congr rfl fun w _ => ?_
  show Scalar.select (maskV x1 (ix3 k h w)) (Ideal.ofBits .f32 0x3F800000#32) (Ideal.ofBits .f32 0x00000000#32) = _
  rw [maskV_apply]

/-! ## The 24 lanes -/

/-- Three unit axes in front of the lane axis: the element at `y` is lane `y 3`. -/
theorem lanes_apply (v : S24.Idx → EReal) (y : S1x1x1x24.Idx) :
    shapeCast S1x1x1x24 v shapeCasts_S24_S1x1x1x24 y = v (ix1 (y 3)) := by
  refine shapeCast_apply v _ y (ix1 (y 3)) ?_
  rw [Shape.rowMajor_val_one, Shape.rowMajor_val_four]
  have h0 : (y 0).val < 1 := (y 0).isLt
  have h1 : (y 1).val < 1 := (y 1).isLt
  have h2 : (y 2).val < 1 := (y 2).isLt
  show (y 3).val = (((y 0).val * 1 + (y 1).val) * 1 + (y 2).val) * 24 + (y 3).val
  omega

section Cat

variable (a b c : S8.Idx → EReal) (q : Fin 24) (k : Fin 8)

theorem cat_fst (hq : q.val = k.val) :
    concatenate S24 0 [⟨S8, a⟩, ⟨S8, b⟩, ⟨S8, c⟩] concatenates_S8_S8_S8_S24_d0 (ix1 q) = a (ix1 k) :=
  concatenate_apply_piece (0 : Fin S24.rank) [⟨S8, a⟩, ⟨S8, b⟩, ⟨S8, c⟩] concatenates_S8_S8_S8_S24_d0 (ix1 q)
    0 (by simp) S8 a rfl rfl 0 rfl (ix1 k)
    (fun d hd => absurd (Fin.ext (by have h1 : d.val < 1 := d.isLt; show d.val = 0; omega)) hd)
    (by show 0 + k.val = q.val; omega)

theorem cat_snd (hq : q.val = 8 + k.val) :
    concatenate S24 0 [⟨S8, a⟩, ⟨S8, b⟩, ⟨S8, c⟩] concatenates_S8_S8_S8_S24_d0 (ix1 q) = b (ix1 k) :=
  concatenate_apply_piece (0 : Fin S24.rank) [⟨S8, a⟩, ⟨S8, b⟩, ⟨S8, c⟩] concatenates_S8_S8_S8_S24_d0 (ix1 q)
    1 (by simp) S8 b rfl rfl 8 rfl (ix1 k)
    (fun d hd => absurd (Fin.ext (by have h1 : d.val < 1 := d.isLt; show d.val = 0; omega)) hd)
    (by show 8 + k.val = q.val; omega)

theorem cat_trd (hq : q.val = 16 + k.val) :
    concatenate S24 0 [⟨S8, a⟩, ⟨S8, b⟩, ⟨S8, c⟩] concatenates_S8_S8_S8_S24_d0 (ix1 q) = c (ix1 k) :=
  concatenate_apply_piece (0 : Fin S24.rank) [⟨S8, a⟩, ⟨S8, b⟩, ⟨S8, c⟩] concatenates_S8_S8_S8_S24_d0 (ix1 q)
    2 (by simp) S8 c rfl rfl 16 rfl (ix1 k)
    (fun d hd => absurd (Fin.ext (by have h1 : d.val < 1 := d.isLt; show d.val = 0; omega)) hd)
    (by show 16 + k.val = q.val; omega)

end Cat

end Cert.KernelIdeal.Dice

end
-- ==== Proof.DiceReal.lean ====
/-
  The real-number side of the Dice loss.

  * the float literals 0.5, 1.0 and 262144.0 denote the reals 1/2, 1 and 262144 = 512 * 512;
  * the logistic function through the hyperbolic tangent: (1/2) * tanh (r/2) + 1/2 = 1 / (1 + exp (-r));
  * over 512 x 512 positions, cut in two halves of 256 rows, with s = (1/2) * th + 1/2:
      (1/2) * sum [p] th + (1/2) * sum [p] 1            = sum s * [p]        (the intersection)
      ((1/2) * sum th + (1/2) * 262144) + sum [p] 1     = sum (s + [p])      (the denominator's sum)
    where [p] is the indicator of the positions whose target is the class.
-/
import Idealize.ShloMosaic.PureOps.Ideal
import Idealize.ShloMosaic.PureOps.Ideal.Laws
import proofs.«120999_g17532056502367_cont_7to1_1352_15_alg».proof.Proof.DiceSums

noncomputable section

namespace Cert.Dice

open Idealize.ShloMosaic

/-- The pattern of 0.5 denotes 1/2. -/
theorem ofBits_half : Ideal.ofBits .f32 0x3F000000#32 = ((1 / 2 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The pattern of 262144.0 denotes 262144, the number of positions of a 512 x 512 image. -/
theorem ofBits_hw : Ideal.ofBits .f32 0x48800000#32 = ((262144 : ℝ) : EReal) := by
  simp [Ideal.ofBits, Ideal.ieee, -EReal.coe_mul]; norm_num

/-- The pattern of +0.0 denotes 0. -/
theorem ofBits_zero : Ideal.ofBits .f32 0x00000000#32 = ((0 : ℝ) : EReal) := by
  rw [Ideal.ofBits_zero_f32, EReal.coe_zero]

/-- The logistic function through the hyperbolic tangent. -/
theorem logistic_eq_tanh (r : ℝ) : (1 / 2 : ℝ) * Real.tanh (r * (1 / 2)) + 1 / 2 = 1 / (1 + Real.exp (-r)) := by
  have hpos : 0 < Real.exp (r * (1 / 2)) := Real.exp_pos _
  have h1 : Real.exp (-(r * (1 / 2))) = (Real.exp (r * (1 / 2)))⁻¹ := Real.exp_neg _
  have h2 : Real.exp (-r) = (Real.exp (r * (1 / 2)))⁻¹ * (Real.exp (r * (1 / 2)))⁻¹ := by
    rw [← h1, ← Real.exp_add]; congr 1; ring
  rw [Real.tanh_eq_sinh_div_cosh, Real.sinh_eq, Real.cosh_eq, h1, h2]
  generalize Real.exp (r * (1 / 2)) = a at hpos
  have ha : a ≠ 0 := ne_of_gt hpos
  field_simp
  ring

section Rows

variable (th : Fin 512 → Fin 512 → ℝ) (p : Fin 512 → Fin 512 → Prop) [∀ H W, Decidable (p H W)]

/-- The number of positions, each counted one half. -/
theorem sum_half : ∑ _H : Fin 512, ∑ _W : Fin 512, (1 / 2 : ℝ) = (1 / 2 : ℝ) * 262144 := by
  simp [Finset.sum_const, Finset.card_univ, Fintype.card_fin]; norm_num

/-- The intersection: the two halves' masked sums of tanh and counts, halved, are the masked sum of the logistic. -/
theorem inter_eq :
    (1 / 2 : ℝ) * (∑ j : Fin 2, ∑ h : Fin 256, ∑ w : Fin 512, (if p (row j h) w then th (row j h) w else 0))
      + (1 / 2 : ℝ) * (∑ j : Fin 2, ∑ h : Fin 256, ∑ w : Fin 512, (if p (row j h) w then (1 : ℝ) else 0))
    = ∑ H : Fin 512, ∑ W : Fin 512, ((1 / 2 : ℝ) * th H W + 1 / 2) * (if p H W then (1 : ℝ) else 0) := by
  rw [← sum_rows (fun H => ∑ w : Fin 512, (if p H w then th H w else 0)),
    ← sum_rows (fun H => ∑ w : Fin 512, (if p H w then (1 : ℝ) else 0)),
    Finset.mul_sum, Finset.mul_sum, ← Finset.sum_add_distrib]
  refine Finset.sum_congr rfl fun H _ => ?_
  rw [Finset.mul_sum, Finset.mul_sum, ← Finset.sum_add_distrib]
  refine Finset.sum_congr rfl fun W _ => ?_
  split_ifs <;> ring

/-- The denominator's sum: the two halves' sums of tanh, halved, plus half the number of positions, plus the count,
    are the sum of the logistic plus the indicator. -/
theorem union_eq :
    ((1 / 2 : ℝ) * (∑ j : Fin 2, ∑ h : Fin 256, ∑ w : Fin 512, th (row j h) w) + (1 / 2 : ℝ) * 262144)
      + (∑ j : Fin 2, ∑ h : Fin 256, ∑ w : Fin 512, (if p (row j h) w then (1 : ℝ) else 0))
    = ∑ H : Fin 512, ∑ W : Fin 512, (((1 / 2 : ℝ) * th H W + 1 / 2) + (if p H W then (1 : ℝ) else 0)) := by
  rw [← sum_rows (fun H => ∑ w : Fin 512, th H w),
    ← sum_rows (fun H => ∑ w : Fin 512, (if p H w then (1 : ℝ) else 0)), ← sum_half,
    Finset.mul_sum, ← Finset.sum_add_distrib, ← Finset.sum_add_distrib]
  refine Finset.sum_congr rfl fun H _ => ?_
  rw [Finset.mul_sum, ← Finset.sum_add_distrib, ← Finset.sum_add_distrib]

end Rows

end Cert.Dice

end
-- ==== Proof.DiceSpec.lean ====
/-
  The two sides of the Dice loss on the extended reals, and the two equations that join them on finite inputs.

  The kernel's accumulators, per batch entry `b`, half `j` of the rows and class `c`: the sum over the half's
  256 x 512 positions of tanh (x/2) (`accTot`), of tanh (x/2) where the target is `c` (`accInt`), and the number of such
  positions (`accCnt`); `accSpec` lays the three along a lane axis of length 24. The reference's terms at a position: the
  logistic 1 / (1 + exp (-x)) (`sigE`) and the one-hot entry (`hotE`).

  With every activation a real number: half the masked tanh-sum plus half the count is the sum of logistic x one-hot
  (`inter_E`), and half the tanh-sum plus half the number of positions plus the count is the sum of logistic + one-hot
  (`union_E`).
-/
import proofs.«120999_g17532056502367_cont_7to1_1352_15_alg».proof.Proof.DiceReal
import Idealize.ShloMosaic.Lib.ValueIdx

noncomputable section

namespace Cert.Dice

open Idealize.ShloMosaic Idealize.ShloMosaic.ValueIdx

abbrev SX : Shape := ⟨4, ![16, 8, 512, 512]⟩
abbrev ST : Shape := ⟨3, ![16, 512, 512]⟩
abbrev SA : Shape := ⟨4, ![16, 2, 1, 24]⟩

/-- tanh of half the activation at batch entry `b`, class `c`, position `(H, W)`. -/
def thE (X : SX.Idx → EReal) (b : Fin 16) (c : Fin 8) (H W : Fin 512) : EReal :=
  Ideal.tanh (X (ix4 b c H W) * Ideal.ofBits .f32 0x3F000000#32)

/-- The class mask as the kernel takes it: the target and the class number, both converted to float, compared. -/
def hitE (tg : ST.Idx → BitVec 32) (b : Fin 16) (c : Fin 8) (H W : Fin 512) : BitVec 1 :=
  Ideal.cmp .oeq (((tg (ix3 b H W)).toInt : ℝ) : EReal) (((BitVec.ofNat 32 c.val).toInt : ℝ) : EReal)

def accTot (X : SX.Idx → EReal) (b : Fin 16) (j : Fin 2) (c : Fin 8) : EReal :=
  ∑ h : Fin 256, ∑ w : Fin 512, thE X b c (row j h) w

def accInt (X : SX.Idx → EReal) (tg : ST.Idx → BitVec 32) (b : Fin 16) (j : Fin 2) (c : Fin 8) : EReal :=
  ∑ h : Fin 256, ∑ w : Fin 512,
    Scalar.select (hitE tg b c (row j h) w) (thE X b c (row j h) w) (Ideal.ofBits .f32 0x00000000#32)

def accCnt (tg : ST.Idx → BitVec 32) (b : Fin 16) (j : Fin 2) (c : Fin 8) : EReal :=
  ∑ h : Fin 256, ∑ w : Fin 512,
    Scalar.select (hitE tg b c (row j h) w) (Ideal.ofBits .f32 0x3F800000#32) (Ideal.ofBits .f32 0x00000000#32)

/-- The kernel's output array: lanes 0-7 the tanh-sums, 8-15 the masked tanh-sums, 16-23 the counts. -/
def accSpec (X : SX.Idx → EReal) (tg : ST.Idx → BitVec 32) : SA.Idx → EReal := fun i =>
  if h1 : (i 3).val < 8 then accTot X (i 0) (i 1) ⟨(i 3).val, h1⟩
  else if h2 : (i 3).val < 16 then accInt X tg (i 0) (i 1) ⟨(i 3).val - 8, by omega⟩
  else accCnt tg (i 0) (i 1) ⟨(i 3).val - 16, by have : (i 3).val < 24 := (i 3).isLt; omega⟩

/-- The reference's logistic: 1 / (1 + exp (-v)). -/
def sigE (v : EReal) : EReal :=
  Ideal.div (Ideal.ofBits .f32 0x3F800000#32) (Ideal.ofBits .f32 0x3F800000#32 + Ideal.exp (-v))

/-- The reference's one-hot entry: the integer comparison's bit as a float. -/
def hotE (tg : ST.Idx → BitVec 32) (b : Fin 16) (c : Fin 8) (H W : Fin 512) : EReal :=
  (((IntOp.cmpi .eq (tg (ix3 b H W)) (BitVec.ofNat 32 c.val)).toNat : ℝ) : EReal)

/-! ## The pointwise terms as real numbers -/

/-- Comparing two integers converted to float is comparing the integers. -/
theorem cmp_toInt (a b : BitVec 32) :
    Ideal.cmp .oeq (((a.toInt : ℝ)) : EReal) (((b.toInt : ℝ)) : EReal) = IntOp.cmpi .eq a b := by
  unfold Ideal.cmp IntOp.cmpi
  congr 1
  by_cases h : a = b
  · subst h; simp
  · have h' : ¬ (((a.toInt : ℝ)) : EReal) = (((b.toInt : ℝ)) : EReal) := fun e =>
      h (BitVec.eq_of_toInt_eq (by exact_mod_cast EReal.coe_eq_coe_iff.mp e))
    simp [h, h']

theorem select_coe (bit : BitVec 1) (u v : ℝ) :
    Scalar.select bit ((u : ℝ) : EReal) ((v : ℝ) : EReal) = ((if bit = 1#1 then u else v : ℝ) : EReal) := by
  unfold Scalar.select
  by_cases h : bit = 1#1
  · rw [if_pos h, if_pos (show bit = 1 from h)]
  · rw [if_neg h, if_neg (show ¬ bit = 1 from h)]

theorem toNat_bit (bit : BitVec 1) : ((bit.toNat : ℝ)) = if bit = 1#1 then (1 : ℝ) else 0 := by
  by_cases h : bit = 1#1
  · subst h; simp
  · rw [eq_zero_of_ne_one h]; simp

theorem sigE_coe (r : ℝ) : sigE (r : EReal) = (((1 / 2 : ℝ) * Real.tanh (r * (1 / 2)) + 1 / 2 : ℝ) : EReal) := by
  have hne : (1 + Real.exp (-r) : ℝ) ≠ 0 := ne_of_gt (by have := Real.exp_pos (-r); linarith)
  unfold sigE
  rw [ofBits_one, ← EReal.coe_neg, Ideal.exp_coe, ← EReal.coe_add, Ideal.div_coe hne, ← EReal.coe_mul, one_mul,
    logistic_eq_tanh]

section Join

variable (x : SX.Idx → ℝ) (tg : ST.Idx → BitVec 32) (b : Fin 16) (c : Fin 8)

/-- tanh of half the activation, as a real. -/
def thR (H W : Fin 512) : ℝ := Real.tanh (x (ix4 b c H W) * (1 / 2))

/-- The position's target is the class. -/
def isC (H W : Fin 512) : Prop := IntOp.cmpi .eq (tg (ix3 b H W)) (BitVec.ofNat 32 c.val) = 1#1

instance (H W : Fin 512) : Decidable (isC tg b c H W) := by unfold isC; infer_instance

theorem thE_coe (H W : Fin 512) : thE (fun i => (x i : EReal)) b c H W = (thR x b c H W : EReal) := by
  unfold thE thR
  rw [ofBits_half, ← EReal.coe_mul, Ideal.tanh_coe]

theorem accTot_coe (j : Fin 2) : accTot (fun i => (x i : EReal)) b j c
    = ((∑ h : Fin 256, ∑ w : Fin 512, thR x b c (row j h) w : ℝ) : EReal) := by
  unfold accTot
  rw [coe_sum]
  refine Finset.sum_congr rfl fun h _ => ?_
  rw [coe_sum]
  exact Finset.sum_congr rfl fun w _ => thE_coe x b c _ _

theorem accInt_coe (j : Fin 2) : accInt (fun i => (x i : EReal)) tg b j c
    = ((∑ h : Fin 256, ∑ w : Fin 512, (if isC tg b c (row j h) w then thR x b c (row j h) w else 0) : ℝ) : EReal) := by
  unfold accInt
  rw [coe_sum]
  refine Finset.sum_congr rfl fun h _ => ?_
  rw [coe_sum]
  refine Finset.sum_congr rfl fun w _ => ?_
  rw [thE_coe, ofBits_zero, select_coe]
  unfold hitE isC
  rw [cmp_toInt]

theorem accCnt_coe (j : Fin 2) : accCnt tg b j c
    = ((∑ h : Fin 256, ∑ w : Fin 512, (if isC tg b c (row j h) w then (1 : ℝ) else 0) : ℝ) : EReal) := by
  unfold accCnt
  rw [coe_sum]
  refine Finset.sum_congr rfl fun h _ => ?_
  rw [coe_sum]
  refine Finset.sum_congr rfl fun w _ => ?_
  rw [ofBits_one, ofBits_zero, select_coe]
  unfold hitE isC
  rw [cmp_toInt]

theorem hotE_coe (H W : Fin 512) : hotE tg b c H W = ((if isC tg b c H W then (1 : ℝ) else 0 : ℝ) : EReal) := by
  unfold hotE isC
  rw [toNat_bit]

/-- THE INTERSECTION. -/
theorem inter_E :
    Ideal.ofBits .f32 0x3F000000#32 * (Ideal.ofBits .f32 0x00000000#32 + ∑ j : Fin 2, accInt (fun i => (x i : EReal)) tg b j c)
      + Ideal.ofBits .f32 0x3F000000#32 * (Ideal.ofBits .f32 0x00000000#32 + ∑ j : Fin 2, accCnt tg b j c)
    = Ideal.ofBits .f32 0x00000000#32
      + ∑ H : Fin 512, ∑ W : Fin 512, sigE ((x (ix4 b c H W) : ℝ) : EReal) * hotE tg b c H W := by
  simp only [accInt_coe, accCnt_coe, hotE_coe, sigE_coe, ofBits_half, ofBits_zero, ← coe_sum, ← EReal.coe_mul,
    ← EReal.coe_add]
  exact congrArg _ (by
    rw [zero_add, zero_add, zero_add]
    exact inter_eq (thR x b c) (isC tg b c))

/-- THE DENOMINATOR'S SUM. -/
theorem union_E :
    ((Ideal.ofBits .f32 0x3F000000#32 * (Ideal.ofBits .f32 0x00000000#32 + ∑ j : Fin 2, accTot (fun i => (x i : EReal)) b j c)
        + Ideal.ofBits .f32 0x3F000000#32 * Ideal.ofBits .f32 0x48800000#32)
      + (Ideal.ofBits .f32 0x00000000#32 + ∑ j : Fin 2, accCnt tg b j c))
    = Ideal.ofBits .f32 0x00000000#32
      + ∑ H : Fin 512, ∑ W : Fin 512, (sigE ((x (ix4 b c H W) : ℝ) : EReal) + hotE tg b c H W) := by
  simp only [accTot_coe, accCnt_coe, hotE_coe, sigE_coe, ofBits_half, ofBits_zero, ofBits_hw, ← coe_sum, ← EReal.coe_mul,
    ← EReal.coe_add]
  exact congrArg _ (by
    rw [zero_add, zero_add, zero_add]
    exact union_eq (thR x b c) (isC tg b c))

end Join

end Cert.Dice

end
-- ==== Proof.DiceBlocks.lean ====
/-
  From the kernel's blocks to its output array. Grid point `(b, j)` reads the activations of batch entry `b`, all 8 classes,
  rows `256 j … 256 j + 255`, and the targets of the same rows, and writes the 24 lanes of row `(b, j)` of the output. So
  the output array after the run is `accSpec` of the two argument arrays: the 32 blocks tile it.
-/
import proofs.«120999_g17532056502367_cont_7to1_1352_15_alg».proof.Proof.Gen.KernelIdeal.Frame
import proofs.«120999_g17532056502367_cont_7to1_1352_15_alg».proof.Proof.DicePayload
import proofs.«120999_g17532056502367_cont_7to1_1352_15_alg».proof.Proof.DiceSpec
import Idealize.ShloMosaic.Lib.Pipeline.Value
import Idealize.ShloMosaic.Lib.StableHlo.Run

set_option maxRecDepth 16384

noncomputable section

namespace Cert.KernelIdeal.Dice

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Dice

/-- One block's lanes are the output's lanes at row `(b, j)`, once the block's entries are the arrays' entries there. -/
theorem block_eq (x0 : Vec Ideal S1x8x256x512 .f32) (x1 : Vec Ideal S1x256x512 .f32)
    (X : SX.Idx → EReal) (tg : ST.Idx → BitVec 32) (b : Fin 16) (j : Fin 2)
    (hx0 : ∀ (k : Fin 8) (h : Fin 256) (w : Fin 512), x0 (ix4 (0 : Fin 1) k h w) = X (ix4 b k (row j h) w))
    (hx1 : ∀ (h : Fin 256) (w : Fin 512), x1 (ix3 (0 : Fin 1) h w) = (((tg (ix3 b (row j h) w)).toInt : ℝ) : EReal))
    (y : S1x1x1x24.Idx) (i : SA.Idx) (hi0 : i 0 = b) (hi1 : i 1 = j) (hi3 : (i 3).val = (y 3).val) :
    k0_pay1 (F := Ideal) x0 x1 y = accSpec X tg i := by
  rw [pay_eq, lanes_apply]
  unfold accSpec
  by_cases h1 : (i 3).val < 8
  · rw [dif_pos h1, cat_fst _ _ _ (y 3) ⟨(i 3).val, h1⟩ (by show (y 3).val = (i 3).val; omega), totV_apply, hi0, hi1]
    unfold accTot thE
    simp only [hx0]
  · rw [dif_neg h1]
    by_cases h2 : (i 3).val < 16
    · rw [dif_pos h2, cat_snd _ _ _ (y 3) ⟨(i 3).val - 8, by omega⟩ (by show (y 3).val = 8 + ((i 3).val - 8); omega),
        intV_apply, hi0, hi1]
      unfold accInt thE hitE
      simp only [hx0, hx1]
    · have h3 : (i 3).val < 24 := (i 3).isLt
      rw [dif_neg h2, cat_trd _ _ _ (y 3) ⟨(i 3).val - 16, by omega⟩ (by show (y 3).val = 16 + ((i 3).val - 16); omega),
        cntV_apply, hi0, hi1]
      unfold accCnt hitE
      simp only [hx1]

variable (m : (ℓ : Loc nD τ sig) → Buf (Elt Ideal) ℓ)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the 32 grid points: the activations' block is (b, 0, j, 0), the targets' (b, j, 0), the
    output's (b, j, 0, 0). -/
theorem idx_facts : ∀ t : Fin cfg0.N,
    win0_0.index t (0 : Fin 4) = win0_2.index t (0 : Fin 4) ∧ win0_0.index t (1 : Fin 4) = 0
    ∧ win0_0.index t (2 : Fin 4) = win0_2.index t (1 : Fin 4) ∧ win0_0.index t (3 : Fin 4) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0
    ∧ win0_2.index t (0 : Fin 4) < 16 ∧ win0_2.index t (1 : Fin 4) < 2 :=
  (by decide +kernel : ∀ t : Fin grid0.N, _)

/-- Every row (b, j) of the output is some point's block. -/
theorem idx_onto : ∀ (q0 : Fin 16) (q1 : Fin 2), ∃ t : Fin cfg0.N, win0_2.index t = ![q0.val, q1.val, 0, 0] :=
  (by decide +kernel : ∀ (q0 : Fin 16) (q1 : Fin 2), ∃ t : Fin grid0.N, win0_2.index t = ![q0.val, q1.val, 0, 0])

/-- The targets' window stages the host's conversion of the integer argument to float. -/
theorem V_tgt (c : Dev nD) :
    (V m c main_call0_v0 : S16x512x512.Idx → EReal) = sitofp (F := Ideal) .f32 (m ((c : Thread nD τ).loc main_arg1)) := by
  show StableHlo.after hostOps0 (fun b => m (c, b)) (Proc.devRef .tc main_call0_v0) = _
  after_results
  rfl

/-- The output array the run leaves. -/
def G (c : Dev nD) : SA.Idx → EReal :=
  accSpec (m ((c : Thread nD τ).loc main_arg0)) (m ((c : Thread nD τ).loc main_arg1))

/-- What point `t` writes back is block `t` of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz4]
  simp only [View.ld_unit_zero (S := S1x8x256x512) hz4, View.ld_unit_zero (S := S1x256x512) hz3]
  obtain ⟨e0, e1, e2, e3, e4, e5, e6, e7, e8, e9, e10⟩ := idx_facts t
  funext y
  show k0_pay1 (F := Ideal) (iblk m c 0 t) (iblk m c 1 t) y = G m c (((cfg0.win 2).blk t).view.emb y)
  have y0 : (y 0).val < 1 := (y 0).isLt
  have y1 : (y 1).val < 1 := (y 1).isLt
  refine block_eq (iblk m c 0 t) (iblk m c 1 t) (m ((c : Thread nD τ).loc main_arg0)) (m ((c : Thread nD τ).loc main_arg1))
    ⟨win0_2.index t (0 : Fin 4), e9⟩ ⟨win0_2.index t (1 : Fin 4), e10⟩ ?_ ?_ y (((cfg0.win 2).blk t).view.emb y) ?_ ?_ ?_
  · intro k h w
    show V m c main_arg0 (((cfg0.win 0).blk t).view.emb (ix4 (0 : Fin 1) k h w)) = _
    rw [V_main_arg0]
    refine congrArg (m ((c : Thread nD τ).loc main_arg0)) (funext fun a => Fin.ext ?_)
    match a with
    | ⟨0, _⟩ => show win0_0.index t (0 : Fin 4) * 1 + 1 * 0 = win0_2.index t (0 : Fin 4); omega
    | ⟨1, _⟩ => show win0_0.index t (1 : Fin 4) * 8 + 1 * k.val = k.val; omega
    | ⟨2, _⟩ => show win0_0.index t (2 : Fin 4) * 256 + 1 * h.val = win0_2.index t (1 : Fin 4) * 256 + h.val; omega
    | ⟨3, _⟩ => show win0_0.index t (3 : Fin 4) * 512 + 1 * w.val = w.val; omega
  · intro h w
    show (V m c main_call0_v0 : S16x512x512.Idx → EReal) (((cfg0.win 1).blk t).view.emb (ix3 (0 : Fin 1) h w)) = _
    rw [V_tgt]
    refine congrArg (fun z => (((m ((c : Thread nD τ).loc main_arg1) z).toInt : ℝ) : EReal)) (funext fun a => Fin.ext ?_)
    match a with
    | ⟨0, _⟩ => show win0_1.index t (0 : Fin 3) * 1 + 1 * 0 = win0_2.index t (0 : Fin 4); omega
    | ⟨1, _⟩ => show win0_1.index t (1 : Fin 3) * 256 + 1 * h.val = win0_2.index t (1 : Fin 4) * 256 + h.val; omega
    | ⟨2, _⟩ => show win0_1.index t (2 : Fin 3) * 512 + 1 * w.val = w.val; omega
  · exact Fin.ext (by show win0_2.index t (0 : Fin 4) * 1 + 1 * (y 0).val = win0_2.index t (0 : Fin 4); omega)
  · exact Fin.ext (by show win0_2.index t (1 : Fin 4) * 1 + 1 * (y 1).val = win0_2.index t (1 : Fin 4); omega)
  · show win0_2.index t (3 : Fin 4) * 24 + 1 * (y 3).val = (y 3).val
    omega

/-- An index of the output array is in point `t`'s block iff each coordinate is in the block's range. -/
theorem mem_blk (t : Fin cfg0.N) (i : S16x2x1x24.Idx) :
    i ∈ ((cfg0.win 2).blk t).view.set ↔ ∀ a : Fin 4, win0_2.index t a * S1x1x1x24.size a ≤ (i a).val
      ∧ (i a).val < win0_2.index t a * S1x1x1x24.size a + S1x1x1x24.size a := by
  show i ∈ ((View.whole main_call0_v1).slice (win0_2.rect t)).set ↔ _
  rw [View.set_slice_whole, Rect.mem_set_unit]
  exact Iff.rfl

/-- The blocks cover the output array: row (b, j) is the block of the point whose index map gives (b, j, 0, 0). -/
theorem cover (i : S16x2x1x24.Idx) :
    ∃ t : Fin cfg0.N, (cfg0.win 2).flush t = true ∧ i ∈ ((cfg0.win 2).blk t).view.set := by
  have hi0 : (i 0).val < 16 := (i 0).isLt
  have hi1 : (i 1).val < 2 := (i 1).isLt
  have hi2 : (i 2).val < 1 := (i 2).isLt
  have hi3 : (i 3).val < 24 := (i 3).isLt
  obtain ⟨t, ht⟩ := idx_onto ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1 ≤ (i 2).val ∧ (i 2).val < win0_2.index t (2 : Fin 4) * 1 + 1; omega
  | ⟨3, _⟩ => show win0_2.index t (3 : Fin 4) * 24 ≤ (i 3).val ∧ (i 3).val < win0_2.index t (3 : Fin 4) * 24 + 24; omega

/-- THE OUTPUT ARRAY after the run. -/
theorem final (c : Dev nD) : (dats m 0 c).arrAt 2 cfg0.N = G m c :=
  (dats m 0 c).arrAt_eq_of_cover 2 (G m c) (fun t _ => flushed_eq m c t) (cover)

end Cert.KernelIdeal.Dice

end
-- ==== Proof.DiceTail.lean ====
/-
  The host lines after the kernel, as one function of the kernel's output array: the two halves of the rows added, the
  three groups of 8 lanes cut apart, the logistic recovered from tanh — numerator 2 * (T_int / 2 + cnt / 2), denominator
  (T_tot / 2 + 262144 / 2) + cnt + eps — and the mean over the classes of 1 - numerator / denominator. And the kernel's run,
  read: its result is that function of `accSpec` of the arguments.
-/
import proofs.«120999_g17532056502367_cont_7to1_1352_15_alg».proof.Proof.DiceBlocks

set_option maxRecDepth 16384

noncomputable section

namespace Cert.KernelIdeal.Dice

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Dice

/-- The mean over the 8 classes of `1 - num / den`. -/
def lossOf (num den : FVec Ideal S16x8 .f32) : FVec Ideal S16 .f32 :=
  Host.divf
    (Host.reduceAdd
      (subf (broadcastInDim S16x8 ![] bcast_S_S16x8 (constant (F := Ideal) S_ .f32 0x3F800000#32)) (Host.divf num den))
      (constant (F := Ideal) S_ .f32 0x00000000#32) reducesTo_S16x8_S16_d1 h_S_)
    (broadcastInDim S16 ![] bcast_S_S16 (constant (F := Ideal) S_ .f32 0x41000000#32))

/-- The output array's two halves added, per batch entry and lane. -/
def accRows (a : FVec Ideal S16x2x1x24 .f32) : FVec Ideal S16x24 .f32 :=
  Host.reduceAdd (shapeCast S16x2x24 a shapeCasts_S16x2x1x24_S16x2x24) (constant (F := Ideal) S_ .f32 0x00000000#32)
    reducesTo_S16x2x24_S16x24_d1 h_S_

/-- The numerator: twice (half the masked tanh-sum plus half the count). -/
def numK (a : FVec Ideal S16x2x1x24 .f32) : FVec Ideal S16x8 .f32 :=
  mulf (broadcastInDim S16x8 ![] bcast_S_S16x8 (constant (F := Ideal) S_ .f32 0x40000000#32))
    (addf
      (mulf (broadcastInDim S16x8 ![] bcast_S_S16x8 (constant (F := Ideal) S_ .f32 0x3F000000#32))
        (extractStridedSlice S16x8 ![0, 8] (accRows a) slices_S16x24_S16x8_0_8))
      (mulf (broadcastInDim S16x8 ![] bcast_S_S16x8 (constant (F := Ideal) S_ .f32 0x3F000000#32))
        (extractStridedSlice S16x8 ![0, 16] (accRows a) slices_S16x24_S16x8_0_16)))

/-- The denominator: half the tanh-sum plus half the number of positions, plus the count, plus eps. -/
def denK (a : FVec Ideal S16x2x1x24 .f32) : FVec Ideal S16x8 .f32 :=
  addf
    (addf
      (addf
        (mulf (broadcastInDim S16x8 ![] bcast_S_S16x8 (constant (F := Ideal) S_ .f32 0x3F000000#32))
          (extractStridedSlice S16x8 ![0, 0] (accRows a) slices_S16x24_S16x8_0_0))
        (broadcastInDim S16x8 ![] bcast_S_S16x8
          (mulf (constant (F := Ideal) S_ .f32 0x3F000000#32) (constant (F := Ideal) S_ .f32 0x48800000#32))))
      (extractStridedSlice S16x8 ![0, 16] (accRows a) slices_S16x24_S16x8_0_16))
    (broadcastInDim S16x8 ![] bcast_S_S16x8 (constant (F := Ideal) S_ .f32 0x38D1B717#32))

/-- The host lines after the kernel. -/
def tailK (a : FVec Ideal S16x2x1x24 .f32) : FVec Ideal S16 .f32 := lossOf (numK a) (denK a)

variable (m : (ℓ : Loc nD τ sig) → Buf (Elt Ideal) ℓ) (ρ : Dev nD → PrngReg)

set_option maxHeartbeats 2000000 in
/-- The result buffer after the host lines that follow the region. -/
theorem tail_eq (c : Dev nD) :
    Pipeline.afterTail₀ cfgs (dats m) 0 (V0 m) [hostOps1] c main_v0 = tailK (G m c) := by
  have hW : Pipeline.withArrays spec0 c (V0 m c) (fun w => (dats m 0 c).arrAt w cfg0.N) (Proc.devRef .tc main_call0_v1)
      = G m c :=
    (Pipeline.withArrays_arr spec0 launch0.win.arr_inj c _ _ 2).trans (final m c)
  unfold Pipeline.afterTail₀
  show StableHlo.after hostOps1 _ (Proc.devRef .tc main_v0) = _
  after_results
  exact congrArg tailK hW

/-- THE KERNEL'S RUN, READ: the result is the host tail of `accSpec` of the arguments; the arguments are unchanged. -/
theorem kernel_run : θ_run defs (onTc (τ := τ) (main (F := Ideal))) ⟨m, fun _ => 0, ρ⟩ (fun r => ∀ c : Dev nD,
      r.2.mem ((c.tc : Thread nD τ).loc main_v0) = tailK (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Dice

end
-- ==== Proof.DiceBridge.lean ====
/-
  The two programs compute one function. The reference's result is the mean over the classes of `1 - num / den` with
  `num = 2 * sum (logistic * one-hot)` and `den = sum (logistic + one-hot) + eps`, the sums over the 512 x 512 positions;
  the kernel's is the same mean with `num` and `den` assembled from its tanh-sums and counts. On finite activations the
  numerators agree by `inter_E` and the denominators by `union_E`.
-/
import proofs.«120999_g17532056502367_cont_7to1_1352_15_alg».proof.Proof.DiceTail
import proofs.«120999_g17532056502367_cont_7to1_1352_15_alg».proof.Proof.Gen.ReferenceIdeal.Read
import proofs.«120999_g17532056502367_cont_7to1_1352_15_alg».proof.Pre_finite_inputs
import Idealize.ShloMosaic.Lib.ReduceAll

set_option maxRecDepth 16384

noncomputable section

namespace Cert.Dice

open Idealize.ShloMosaic Idealize.ShloMosaic.ValueIdx
open Cert.KernelIdeal.Dice

/-! ## Finite activations -/

instance : Subsingleton (Cert.Pre_finite_inputs.S_).Idx := ⟨fun a b => funext fun d => d.elim0⟩

/-- Under the precondition every activation is a real number. -/
theorem finite_of_pre [Cert.Pre_finite_inputs.Facts] (X : FVec Ideal Cert.Pre_finite_inputs.S16x8x512x512 .f32)
    (tg : IVec Cert.Pre_finite_inputs.S16x512x512 32)
    (h : Cert.Pre_finite_inputs.fn (F := Ideal) X tg = fun _ => 1#1) (i : SX.Idx) : ∃ r : ℝ, X i = (r : EReal) := by
  have h0 := congrFun h ix0
  dsimp only [Cert.Pre_finite_inputs.fn] at h0
  have hi := Host.reduce_andi_all _ _ _ _ _ h0 i
  have hlt : max (X i) (-(X i)) < ⊤ := by
    have hc : Ideal.cmp .olt (max (X i) (-(X i))) (Ideal.ofBits .f32 0x7F800000#32) = 1#1 := hi
    have htop : Ideal.ofBits .f32 0x7F800000#32 = ⊤ := by simp [Ideal.ofBits, Ideal.ieee]
    rw [htop] at hc
    unfold Ideal.cmp at hc
    by_contra hn
    simp [hn] at hc
  generalize X i = v at hlt
  induction v using EReal.rec with
  | bot => simp at hlt
  | top => simp at hlt
  | coe r => exact ⟨r, rfl⟩

/-! ## The output array's lanes -/

section Lanes

variable (X : SX.Idx → EReal) (tg : ST.Idx → BitVec 32) (b : Fin 16) (j : Fin 2) (c : Fin 8)

theorem accSpec_tot : accSpec X tg (ix4 b j (0 : Fin 1) (⟨c.val, by omega⟩ : Fin 24)) = accTot X b j c := by
  unfold accSpec
  rw [dif_pos (show c.val < 8 from c.isLt)]

theorem accSpec_int : accSpec X tg (ix4 b j (0 : Fin 1) (⟨8 + c.val, by omega⟩ : Fin 24)) = accInt X tg b j c := by
  unfold accSpec
  rw [dif_neg (show ¬ (8 + c.val < 8) by omega), dif_pos (show 8 + c.val < 16 by omega)]
  exact congrArg (accInt X tg b j) (Fin.ext (show 8 + c.val - 8 = c.val by omega))

theorem accSpec_cnt : accSpec X tg (ix4 b j (0 : Fin 1) (⟨16 + c.val, by omega⟩ : Fin 24)) = accCnt tg b j c := by
  unfold accSpec
  rw [dif_neg (show ¬ (16 + c.val < 8) by omega), dif_neg (show ¬ (16 + c.val < 16) by omega)]
  exact congrArg (accCnt tg b j) (Fin.ext (show 16 + c.val - 16 = c.val by omega))

end Lanes

end Cert.Dice

namespace Cert.KernelIdeal.Dice

open Idealize.ShloMosaic Idealize.ShloMosaic.ValueIdx Cert.KernelIdeal Cert.KernelIdeal.Gen Cert.Dice

/-- The two halves added: batch entry `b`, lane `q`. -/
theorem accRows_apply (a : FVec Ideal S16x2x1x24 .f32) (b : Fin 16) (q : Fin 24) :
    accRows a (ix2 b q) = Ideal.ofBits .f32 0x00000000#32 + ∑ j : Fin 2, a (ix4 b j (0 : Fin 1) q) := by
  unfold accRows
  simp only [Host.reduceAdd, Ideal.hostReduceAdd_def]
  rw [Ideal.hostReduceAdd_single reducesTo_S16x2x24_S16x24_d1 (by decide)]
  refine congrArg (_ + ·) (Finset.sum_congr rfl fun j _ => ?_)
  refine shapeCast_apply a _ _ (ix4 b j (0 : Fin 1) q) ?_
  rw [Shape.rowMajor_val_four, Shape.rowMajor_val_three]
  show ((b.val * 2 + j.val) * 1 + 0) * 24 + q.val = (b.val * 2 + j.val) * 24 + q.val
  omega

theorem slice_apply (R : FVec Ideal S16x24 .f32) (off : Nat) (hs : S16x24.Slices ![0, off] S16x8) (b : Fin 16) (c : Fin 8)
    (hq : off + c.val < 24) : extractStridedSlice S16x8 ![0, off] R hs (ix2 b c) = R (ix2 b ⟨off + c.val, hq⟩) :=
  extractStridedSlice_apply _ R hs (ix2 b c) (ix2 b ⟨off + c.val, hq⟩) (fun d => by
    match d with
    | ⟨0, _⟩ => show b.val = 0 + b.val; omega
    | ⟨1, _⟩ => rfl)

theorem numK_apply (a : FVec Ideal S16x2x1x24 .f32) (b : Fin 16) (c : Fin 8) :
    numK a (ix2 b c) = Ideal.ofBits .f32 0x40000000#32
      * (Ideal.ofBits .f32 0x3F000000#32 * accRows a (ix2 b ⟨8 + c.val, by omega⟩)
        + Ideal.ofBits .f32 0x3F000000#32 * accRows a (ix2 b ⟨16 + c.val, by omega⟩)) := by
  unfold numK
  generalize accRows a = R
  show _ * (_ * extractStridedSlice S16x8 ![0, 8] R slices_S16x24_S16x8_0_8 (ix2 b c)
    + _ * extractStridedSlice S16x8 ![0, 16] R slices_S16x24_S16x8_0_16 (ix2 b c)) = _
  rw [slice_apply R 8 _ b c (by omega), slice_apply R 16 _ b c (by omega)]
  rfl

theorem denK_apply (a : FVec Ideal S16x2x1x24 .f32) (b : Fin 16) (c : Fin 8) :
    denK a (ix2 b c) = ((Ideal.ofBits .f32 0x3F000000#32 * accRows a (ix2 b ⟨0 + c.val, by omega⟩)
          + Ideal.ofBits .f32 0x3F000000#32 * Ideal.ofBits .f32 0x48800000#32)
        + accRows a (ix2 b ⟨16 + c.val, by omega⟩))
      + Ideal.ofBits .f32 0x38D1B717#32 := by
  unfold denK
  generalize accRows a = R
  show ((_ * extractStridedSlice S16x8 ![0, 0] R slices_S16x24_S16x8_0_0 (ix2 b c) + _)
    + extractStridedSlice S16x8 ![0, 16] R slices_S16x24_S16x8_0_16 (ix2 b c)) + _ = _
  rw [slice_apply R 0 _ b c (by omega), slice_apply R 16 _ b c (by omega)]
  rfl

end Cert.KernelIdeal.Dice

namespace Cert.ReferenceIdeal.Dice

open Idealize.ShloMosaic Idealize.ShloMosaic.ValueIdx Cert.ReferenceIdeal Cert.ReferenceIdeal.Gen Cert.ReferenceIdeal.Read Cert.Dice

variable (X : SX.Idx → EReal) (tg : ST.Idx → BitVec 32) (b : Fin 16) (c : Fin 8)

theorem tgt_idx (H W : Fin 512) : idx_main_call0_v0 (idx_main_call0_v2 (ix4 b c H W)) = ix3 b H W :=
  funext fun a => Fin.ext (by match a with | ⟨0, _⟩ => rfl | ⟨1, _⟩ => rfl | ⟨2, _⟩ => rfl)

/-- The logistic at a position. -/
theorem v5_apply (H W : Fin 512) : val_main_v5 (F := Ideal) X (ix4 b c H W) = sigE (X (ix4 b c H W)) := rfl

/-- The one-hot entry at a position. -/
theorem v6_apply (H W : Fin 512) : val_main_v6 (F := Ideal) tg (ix4 b c H W) = hotE tg b c H W := by
  rw [val_main_v6_apply, val_main_call0_v4_apply, val_main_call0_v2_apply, val_main_call0_v0_apply, val_main_call0_v3_apply,
    val_main_call0_v1_apply, tgt_idx]
  rfl

/-- The intersection's sum. -/
theorem v8_apply : val_main_v8 (F := Ideal) X tg (ix2 b c)
    = Ideal.ofBits .f32 0x00000000#32 + ∑ H : Fin 512, ∑ W : Fin 512, sigE (X (ix4 b c H W)) * hotE tg b c H W := by
  unfold val_main_v8
  simp only [Host.reduceAdd, Ideal.hostReduceAdd_def]
  unfold Ideal.hostReduceAdd
  refine congrArg (_ + ·) ?_
  refine Eq.trans (@sum_fiber4 EReal _ 16 8 512 512 reducesTo_S16x8x512x512_S16x8_d2_3.drop (fun y => rfl) (fun y => rfl) _ b c _) ?_
  refine Finset.sum_congr rfl fun H _ => Finset.sum_congr rfl fun W _ => ?_
  show val_main_v5 (F := Ideal) X (ix4 b c H W) * val_main_v6 (F := Ideal) tg (ix4 b c H W) = _
  rw [v5_apply, v6_apply]

/-- The denominator's sum. -/
theorem v12_apply : val_main_v12 (F := Ideal) X tg (ix2 b c)
    = Ideal.ofBits .f32 0x00000000#32 + ∑ H : Fin 512, ∑ W : Fin 512, (sigE (X (ix4 b c H W)) + hotE tg b c H W) := by
  unfold val_main_v12
  simp only [Host.reduceAdd, Ideal.hostReduceAdd_def]
  unfold Ideal.hostReduceAdd
  refine congrArg (_ + ·) ?_
  refine Eq.trans (@sum_fiber4 EReal _ 16 8 512 512 reducesTo_S16x8x512x512_S16x8_d2_3.drop (fun y => rfl) (fun y => rfl) _ b c _) ?_
  refine Finset.sum_congr rfl fun H _ => Finset.sum_congr rfl fun W _ => ?_
  show val_main_v5 (F := Ideal) X (ix4 b c H W) + val_main_v6 (F := Ideal) tg (ix4 b c H W) = _
  rw [v5_apply, v6_apply]

/-- The reference's result is the mean over the classes of `1 - num / den`. -/
theorem v20_eq : val_main_v20 (F := Ideal) X tg
    = Cert.KernelIdeal.Dice.lossOf (val_main_v10 (F := Ideal) X tg) (val_main_v14 (F := Ideal) X tg) := rfl

end Cert.ReferenceIdeal.Dice

namespace Cert.Dice

open Idealize.ShloMosaic Idealize.ShloMosaic.ValueIdx Cert.KernelIdeal.Dice Cert.ReferenceIdeal.Read Cert.ReferenceIdeal.Dice

/-- THE BRIDGE: on finite activations the kernel's host tail of its output array is the reference's result. -/
theorem result_eq (X : SX.Idx → EReal) (tg : ST.Idx → BitVec 32) (hfin : ∀ i, ∃ r : ℝ, X i = (r : EReal)) :
    tailK (accSpec X tg) = val_main_v20 (F := Ideal) X tg := by
  choose x hx using hfin
  obtain rfl : X = fun i => (x i : EReal) := funext hx
  rw [v20_eq]
  unfold tailK
  have hnum : numK (accSpec (fun i => (x i : EReal)) tg) = val_main_v10 (F := Ideal) (fun i => (x i : EReal)) tg := by
    funext i
    obtain ⟨b, c, rfl⟩ : ∃ (b : Fin 16) (c : Fin 8), i = ix2 b c := ⟨i 0, i 1, eq_ix2 i⟩
    rw [numK_apply, accRows_apply, accRows_apply]
    simp only [accSpec_int, accSpec_cnt]
    rw [inter_E x tg b c]
    show _ = Ideal.ofBits .f32 0x40000000#32 * val_main_v8 (F := Ideal) (fun i => (x i : EReal)) tg (ix2 b c)
    rw [v8_apply]
  have hden : denK (accSpec (fun i => (x i : EReal)) tg) = val_main_v14 (F := Ideal) (fun i => (x i : EReal)) tg := by
    funext i
    obtain ⟨b, c, rfl⟩ : ∃ (b : Fin 16) (c : Fin 8), i = ix2 b c := ⟨i 0, i 1, eq_ix2 i⟩
    rw [denK_apply, accRows_apply, accRows_apply]
    have e0 : (⟨0 + c.val, by omega⟩ : Fin 24) = ⟨c.val, by omega⟩ := Fin.ext (by simp)
    rw [e0]
    simp only [accSpec_tot, accSpec_cnt]
    rw [union_E x tg b c]
    show _ = val_main_v12 (F := Ideal) (fun i => (x i : EReal)) tg (ix2 b c) + Ideal.ofBits .f32 0x38D1B717#32
    rw [v12_apply]
  rw [hnum, hden]

end Cert.Dice

end
-- ==== Proof.lean ====
/-
  A multiclass Dice loss over 16 images of 512 x 512 positions and 8 classes, computed two ways.

  The reference takes the logistic `s = 1 / (1 + exp (-x))` of every activation, builds the one-hot array `e` of the targets,
  and returns, per image, the mean over the classes of `1 - 2 * sum (s * e) / (sum (s + e) + eps)`, the sums over the positions.

  The kernel never forms `s` or `e`. Per image, half of the rows and class it accumulates three numbers: the sum of
  `tanh (x / 2)`, the same sum over the positions whose target is the class, and the number of such positions. After the
  kernel the two halves are added and `s = tanh (x / 2) / 2 + 1 / 2` is applied to the sums:
  `sum (s * e) = T_int / 2 + cnt / 2` and `sum s = T_tot / 2 + 262144 / 2`, where 262144 = 512 * 512 is the number of
  positions. The identity between the logistic and the hyperbolic tangent and the distribution of 1/2 over the sums hold for
  real activations, which is what the precondition (every activation finite) provides.

  The modules: DiceSums (finite sums re-indexed), DiceReal (the identity and the two equations over the reals), DiceSpec
  (both sides on the extended reals), DicePayload (the kernel body's 24 lanes), DiceBlocks (the kernel's output array),
  DiceTail (the lines after the kernel, and the kernel's run), DiceBridge (the two results are one function).
-/
import proofs.«120999_g17532056502367_cont_7to1_1352_15_alg».proof.Defs
import proofs.«120999_g17532056502367_cont_7to1_1352_15_alg».proof.Proof.Gen.Kernel
import proofs.«120999_g17532056502367_cont_7to1_1352_15_alg».proof.Proof.Gen.Kernel.Skeleton
import proofs.«120999_g17532056502367_cont_7to1_1352_15_alg».proof.Proof.Gen.Kernel.Launch
import proofs.«120999_g17532056502367_cont_7to1_1352_15_alg».proof.Proof.Gen.Kernel.Points
import proofs.«120999_g17532056502367_cont_7to1_1352_15_alg».proof.Proof.Gen.Kernel.Frame
import proofs.«120999_g17532056502367_cont_7to1_1352_15_alg».proof.Proof.Gen.KernelIdeal
import proofs.«120999_g17532056502367_cont_7to1_1352_15_alg».proof.Proof.Gen.KernelIdeal.Skeleton
import proofs.«120999_g17532056502367_cont_7to1_1352_15_alg».proof.Proof.Gen.KernelIdeal.Launch
import proofs.«120999_g17532056502367_cont_7to1_1352_15_alg».proof.Proof.Gen.KernelIdeal.Points
import proofs.«120999_g17532056502367_cont_7to1_1352_15_alg».proof.Proof.Gen.KernelIdeal.Frame
import proofs.«120999_g17532056502367_cont_7to1_1352_15_alg».proof.Proof.Gen.ReferenceIdeal
import proofs.«120999_g17532056502367_cont_7to1_1352_15_alg».proof.Proof.Gen.ReferenceIdeal.Run
import proofs.«120999_g17532056502367_cont_7to1_1352_15_alg».proof.Proof.Gen.ReferenceIdeal.Read
import proofs.«120999_g17532056502367_cont_7to1_1352_15_alg».proof.Proof.Gen.Pre_finite_inputs
import proofs.«120999_g17532056502367_cont_7to1_1352_15_alg».proof.Proof.DiceBridge
import Idealize.ShloMosaic.Adequacy
import Idealize.ShloMosaic.Init

noncomputable section

namespace Cert.Proof

open Idealize.ShloMosaic Idealize.SL.Sem

/-- Each program runs to the end and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every activation finite, the two programs end with the same loss per
    image: the kernel's tanh-sums and counts, combined after the kernel, are the reference's sums of logistic and one-hot. -/
theorem algebraic : Cert.algebraic_KernelIdeal_ReferenceIdeal := by
  intro m ρ m' ρ' hpre hagree
  refine ⟨fun c => Cert.KernelIdeal.Dice.tailK (Cert.KernelIdeal.Dice.G m c), Cert.KernelIdeal.Dice.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal) _ _).trans ?_
  rw [(hagree c).1, (hagree c).2]
  exact (Cert.Dice.result_eq _ _ (Cert.Dice.finite_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
